-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x4096 : Shape := ⟨2, ![65536, 4096]⟩
abbrev S1024x1024 : Shape := ⟨2, ![1024, 1024]⟩
abbrev S1024x1 : Shape := ⟨2, ![1024, 1]⟩
abbrev S_ : Shape := ⟨0, ![]⟩

class Facts : Prop where
  bcast_S_S65536x4096 : S_.BroadcastsInDim S65536x4096 (![] : Fin 0 → Fin S65536x4096.rank)
  reducesTo_S65536x4096_S_d0_1 : S65536x4096.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn {F : FTy → Type} [FloatOps F] (main_arg0 : FVec F S65536x4096 .f32) (main_arg1 : FVec F S1024x1024 .f32) (main_arg2 : FVec F S1024x1 .f32) : IVec S_ 1 :=
  let main_v0 : FVec F S65536x4096 .f32 := Host.absf main_arg0
  let main_cst : FVec F S_ .f32 := constant S_ .f32 0x7F800000#32
  let main_v1 : FVec F S65536x4096 .f32 := broadcastInDim S65536x4096 ![] bcast_S_S65536x4096 main_cst
  let main_v2 : IVec S65536x4096 1 := cmpf .olt main_v0 main_v1
  let main_c : IVec S_ 1 := constantI S_ 1 1#1
  let main_v3 : IVec S_ 1 := (fun x v => Host.reduce IntOp.andi x v reducesTo_S65536x4096_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  main_v13
-- ==== Kernel.lean ====
abbrev S65536x4096 : Shape := ⟨2, ![65536, 4096]⟩
abbrev S1024x1024 : Shape := ⟨2, ![1024, 1024]⟩
abbrev S1024x1 : Shape := ⟨2, ![1024, 1]⟩
abbrev S65536x1 : Shape := ⟨2, ![65536, 1]⟩

abbrev nBuf : Space → Nat
  | .hbm => 6
  | .vmem => 6
  | .smem => 0
  | _ => 0

abbrev bufTy : (tb : Table) → Fin (tcTables nBuf tb) → BufTy
  | .hbm, ⟨0, _⟩ => ⟨S65536x4096, .f32⟩
  | .hbm, ⟨1, _⟩ => ⟨S1024x1024, .f32⟩
  | .hbm, ⟨2, _⟩ => ⟨S1024x1, .f32⟩
  | .hbm, ⟨3, _⟩ => ⟨S1024x1024, .bf16⟩
  | .hbm, ⟨4, _⟩ => ⟨S1024x1, .bf16⟩
  | .hbm, ⟨5, _⟩ => ⟨S65536x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1, .bf16⟩
  | .local _ .vmem, ⟨4, _⟩ => ⟨S1024x1, .f32⟩
  | .local _ .vmem, ⟨5, _⟩ => ⟨S1024x1, .f32⟩
  | _, _ => ⟨S65536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  dot_S1024x1024_S1024x1024_S1024x1024_1_0_0_1_n_n_wf : DotDims.WF S1024x1024 S1024x1024 S1024x1024 [1] [0] [0] [1] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x4096.size a
  hwx0_0 : ∀ i : grid0.Coords, EltTy.bits .f32 = 32 ∨ (Rect.block (s := S65536x4096) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .bf16 = 32 ∨ (Rect.block (s := S1024x1) S1024x1.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S65536x1.size a
  hwx0_3 : ∀ i : grid0.Coords, EltTy.bits .f32 = 32 ∨ (Rect.block (s := S65536x1) S1024x1.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x4096 : Shape := ⟨2, ![65536, 4096]⟩
abbrev S1024x1024 : Shape := ⟨2, ![1024, 1024]⟩
abbrev S1024x1 : Shape := ⟨2, ![1024, 1]⟩
abbrev S65536x1024 : Shape := ⟨2, ![65536, 1024]⟩
abbrev S_ : Shape := ⟨0, ![]⟩
abbrev S65536x1 : Shape := ⟨2, ![65536, 1]⟩

abbrev nBuf : Space → Nat
  | .hbm => 30
  | .vmem => 0
  | .smem => 0
  | _ => 0

abbrev bufTy : (tb : Table) → Fin (tcTables nBuf tb) → BufTy
  | .hbm, ⟨0, _⟩ => ⟨S65536x4096, .f32⟩
  | .hbm, ⟨1, _⟩ => ⟨S1024x1024, .f32⟩
  | .hbm, ⟨2, _⟩ => ⟨S1024x1, .f32⟩
  | .hbm, ⟨3, _⟩ => ⟨S65536x1024, .f32⟩
  | .hbm, ⟨4, _⟩ => ⟨S65536x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S65536x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S65536x1, .f32⟩
  | .hbm, ⟨29, _⟩ => ⟨S65536x1, .f32⟩
  | _, _ => ⟨S65536x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩

abbrev nD : Nat := 1
abbrev τ : Topo := Topo.v7x

variable {F : FTy → Type} [FloatOps F]

class Facts₀ : Prop where
  slices_S65536x4096_S65536x1024_0_0 : S65536x4096.Slices ![0, 0] S65536x1024
  bcast_S_S65536x1024 : S_.BroadcastsInDim S65536x1024 (![] : Fin 0 → Fin S65536x1024.rank)
  bcast_S_S65536x1 : S_.BroadcastsInDim S65536x1 (![] : Fin 0 → Fin S65536x1.rank)
  dot_S65536x1024_S1024x1024_S65536x1024_1_0_0_1_n_n_wf : DotDims.WF S65536x1024 S1024x1024 S65536x1024 [1] [0] [0] [1] [] []
  dot_S65536x1024_S1024x1_S65536x1_1_0_0_1_n_n_wf : DotDims.WF S65536x1024 S1024x1 S65536x1 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x1_S65536x1_1_0_0_1_n_n : DotDims S65536x1024 S1024x1 S65536x1 where
  lhsContracting := [1]
  rhsContracting := [0]
  lhsNonContracting := [0]
  rhsNonContracting := [1]
  lhsBatch := []
  rhsBatch := []
  wf := dot_S65536x1024_S1024x1_S65536x1_1_0_0_1_n_n_wf

class Facts : Prop extends Facts₀ where

variable [Facts]
-- ==== Proof.Spec.lean ====
/-
  The readout block as ONE function of its three argument arrays, over the extended reals.

  With `x : [65536, 4096]`, `W₁ : [1024, 1024]`, `W₂ : [1024, 1]`, only the first 1024 columns of `x` (the scalar
  channels) reach the output. Row `r` of the result is

      out r = ( Σ_k  act ( Σ_j x[r, j] · W₁[j, k] ) · W₂[k, 0] ) · 2⁻⁵,      act v = u · σ(u) · g,  u = v · 2⁻⁵,

  σ the logistic function `1 / (1 + e^(-u))` and `g` the binary32 word nearest 1.679. The factor `2⁻⁵` is
  `1/√1024`, the fan-in normalisation of both linear layers. Both programs compute exactly this shape — product,
  scale, activation, product, scale, every product and sum with its operands in this order — so no algebraic
  law of the extended reals beyond the two scalar identities below is needed, and nothing here asks the inputs
  to be finite.

  The two scalar identities: one program multiplies by the word `0x3D000000` (`2⁻⁵`), the other divides `1` by the
  square root of `1024`; and one applies the logistic function as one operation, the other spells it as
  `1 / (1 + exp (-u))`. Both pairs denote the same extended real.
-/
import Idealize.ShloMosaic.PureOps.Ideal
import Idealize.ShloMosaic.Lib.ValueIdx

noncomputable section

open scoped BigOperators

namespace Cert.Readout

open Idealize.ShloMosaic Idealize.ShloMosaic.ValueIdx

/-- The fan-in scale `1/√1024 = 2⁻⁵`, as the binary32 word each matrix product is multiplied by. -/
abbrev scale : EReal := Ideal.ofBits .f32 0x3D000000#32

/-- The second-moment normalisation of SiLU: the binary32 word nearest 1.679. It is the same word in both programs,
    so its value is never computed. -/
abbrev gain : EReal := Ideal.ofBits .f32 0x3FD6E979#32

/-- Normalised SiLU of a pre-activation `v`: with `u = v · 2⁻⁵`, the value `u · σ(u) · g`. -/
def act (v : EReal) : EReal := v * scale * Ideal.logistic (v * scale) * gain

/-- Column `j` of the scalar block, among the 4096 input columns (the block is the first 1024 of them). -/
abbrev col (j : Fin 1024) : Fin 4096 := ⟨j.val, by have := j.isLt; omega⟩

/-- The output entry at row `r` (its one column `q`): the two contractions, each over 1024 terms. -/
def entry (X : (⟨2, ![65536, 4096]⟩ : Shape).Idx → EReal) (A : (⟨2, ![1024, 1024]⟩ : Shape).Idx → EReal)
    (B : (⟨2, ![1024, 1]⟩ : Shape).Idx → EReal) (r : Fin 65536) (q : Fin 1) : EReal :=
  (∑ k : Fin 1024, act (∑ j : Fin 1024, X (ix2 r (col j)) * A (ix2 j k)) * B (ix2 k q)) * scale

/-- The whole result array as a function of the three argument arrays. -/
def G (X : (⟨2, ![65536, 4096]⟩ : Shape).Idx → EReal) (A : (⟨2, ![1024, 1024]⟩ : Shape).Idx → EReal)
    (B : (⟨2, ![1024, 1]⟩ : Shape).Idx → EReal) : (⟨2, ![65536, 1]⟩ : Shape).Idx → EReal :=
  fun i => entry X A B ⟨(i 0).val, (i 0).isLt⟩ ⟨(i 1).val, (i 1).isLt⟩

/-! ## The scalar identities -/

/-- The word `0x3F800000` denotes `1`. -/
theorem ofBits_one : Ideal.ofBits .f32 0x3F800000#32 = 1 := by
  simp [Ideal.ofBits, Ideal.ieee, -EReal.coe_mul]; norm_num

/-- The word `0x44800000` denotes `1024 = 2¹⁰`. -/
theorem ofBits_1024 : Ideal.ofBits .f32 0x44800000#32 = ((1024 : ℝ) : EReal) := by
  simp [Ideal.ofBits, Ideal.ieee, -EReal.coe_mul]; norm_num

/-- The word `0x3D000000` denotes `1/32 = 2⁻⁵`. -/
theorem ofBits_scale : Ideal.ofBits .f32 0x3D000000#32 = ((1 / 32 : ℝ) : EReal) := by
  simp [Ideal.ofBits, Ideal.ieee, -EReal.coe_mul]; norm_num

/-- `√1024 = 32`, since `32² = 1024`. -/
theorem sqrt_1024 : Real.sqrt 1024 = 32 := by
  rw [show (1024 : ℝ) = 32 ^ 2 by norm_num]
  exact Real.sqrt_sq (by norm_num)

/-- `1 / √1024` is the scale word's value: the square root of a perfect square is exact, and so is the quotient. -/
theorem inv_sqrt_fan_in :
    Ideal.div (Ideal.ofBits .f32 0x3F800000#32) (Ideal.sqrt (Ideal.ofBits .f32 0x44800000#32)) = scale := by
  rw [ofBits_one, ofBits_1024, Ideal.sqrt_coe, if_neg (by norm_num), sqrt_1024,
    Ideal.div_coe (by norm_num : (32 : ℝ) ≠ 0), one_mul]
  exact ofBits_scale.symm

/-- The logistic function spelt as a quotient, `1 / (1 + e^(-u))` with both ones the word `0x3F800000`, is the
    logistic function, at every extended real: this is its definition. -/
theorem logistic_spelt (u : EReal) :
    Ideal.div (Ideal.ofBits .f32 0x3F800000#32) (Ideal.ofBits .f32 0x3F800000#32 + Ideal.exp (-u)) = Ideal.logistic u := by
  rw [ofBits_one]; rfl

end Cert.Readout

end
-- ==== Proof.Payload.lean ====
/-
  The kernel body's one stored value, read at an entry.

  At one grid point the body holds a block `x₀ : [1024, 1024]` of rows of the scalar channels, all of `W₁` and all
  of `W₂`, and stores a `[1024, 1]` column. Entry `(p, q)` of that column is the specification's shape on row `p` of
  the block: the product with `W₁` contracted over the block's 1024 columns, scaled, activated, the product with
  `W₂` contracted over the 1024 hidden channels, scaled. A matrix product into a zero accumulator is the plain sum
  over the contracted axis; the changes of float format and the same-shape casts are the identity.
-/
import proofs.«105250_j49091476194033_1_alg».proof.Proof.Gen.KernelIdeal.Skeleton
import proofs.«105250_j49091476194033_1_alg».proof.Proof.Spec
import Idealize.ShloMosaic.Lib.ValueIdx
import Idealize.ShloMosaic.Lib.Pipeline.Value
import Idealize.ShloMosaic.PureOps.Ideal.Laws

noncomputable section

open scoped BigOperators

namespace Cert.Readout

open Idealize.ShloMosaic Idealize.ShloMosaic.ValueIdx Cert.KernelIdeal Cert.KernelIdeal.Gen

/-- The dimension numbers of the first product, `[1024, 1024] × [1024, 1024]`, contracting the left operand's columns
    with the right operand's rows. -/
abbrev D1 : DotDims S1024x1024 S1024x1024 S1024x1024 := dot_S1024x1024_S1024x1024_S1024x1024_1_0_0_1_n_n
/-- The dimension numbers of the second product, `[1024, 1024] × [1024, 1]`. -/
abbrev D2 : DotDims S1024x1024 S1024x1 S1024x1 := dot_S1024x1024_S1024x1_S1024x1_1_0_0_1_n_n

/-! ## The operand coordinates of the two products

  At output entry `i` and contraction coordinate `q`, the left operand is read at (row of `i`, `q`) and the right
  operand at (`q`, column of `i`). -/

theorem lhs1_0 (i : S1024x1024.Idx) (q : D1.contr.Idx) : (D1.lhsIdx i q 0).val = (i 0).val := by
  unfold DotDims.lhsIdx
  rw [dif_neg (show ¬(0 : Fin S1024x1024.rank) ∈ D1.lhsBatch by decide),
    dif_pos (show (0 : Fin S1024x1024.rank) ∈ D1.lhsNonContracting by decide)]
  rfl
theorem lhs1_1 (i : S1024x1024.Idx) (q : D1.contr.Idx) : (D1.lhsIdx i q 1).val = (q ⟨0, by decide⟩).val :=
  D1.lhsIdx_val_of_single rfl i q
theorem rhs1_0 (i : S1024x1024.Idx) (q : D1.contr.Idx) : (D1.rhsIdx i q 0).val = (q ⟨0, by decide⟩).val :=
  D1.rhsIdx_val_of_single rfl i q
theorem rhs1_1 (i : S1024x1024.Idx) (q : D1.contr.Idx) : (D1.rhsIdx i q 1).val = (i 1).val := by
  unfold DotDims.rhsIdx
  rw [dif_neg (show ¬(1 : Fin S1024x1024.rank) ∈ D1.rhsBatch by decide),
    dif_pos (show (1 : Fin S1024x1024.rank) ∈ D1.rhsNonContracting by decide)]
  rfl

theorem lhs2_0 (i : S1024x1.Idx) (q : D2.contr.Idx) : (D2.lhsIdx i q 0).val = (i 0).val := by
  unfold DotDims.lhsIdx
  rw [dif_neg (show ¬(0 : Fin S1024x1024.rank) ∈ D2.lhsBatch by decide),
    dif_pos (show (0 : Fin S1024x1024.rank) ∈ D2.lhsNonContracting by decide)]
  rfl
theorem lhs2_1 (i : S1024x1.Idx) (q : D2.contr.Idx) : (D2.lhsIdx i q 1).val = (q ⟨0, by decide⟩).val :=
  D2.lhsIdx_val_of_single rfl i q
theorem rhs2_0 (i : S1024x1.Idx) (q : D2.contr.Idx) : (D2.rhsIdx i q 0).val = (q ⟨0, by decide⟩).val :=
  D2.rhsIdx_val_of_single rfl i q
theorem rhs2_1 (i : S1024x1.Idx) (q : D2.contr.Idx) : (D2.rhsIdx i q 1).val = (i 1).val := by
  unfold DotDims.rhsIdx
  rw [dif_neg (show ¬(1 : Fin S1024x1.rank) ∈ D2.rhsBatch by decide),
    dif_pos (show (1 : Fin S1024x1.rank) ∈ D2.rhsNonContracting by decide)]
  rfl

/-! ## The two products as plain sums -/

/-- The first product into a zero accumulator at `(p, k)`: the sum over the contracted axis `j` of
    `l[p, j] · r[j, k]`. -/
theorem mm1_apply {φ₁ φ₂ : FTy} (l : FVec Ideal S1024x1024 φ₁) (r : FVec Ideal S1024x1024 φ₂) (p k : Fin 1024) :
    matmul D1 none l r (constant (F := Ideal) S1024x1024 .f32 0x00000000#32) (ix2 p k)
      = ∑ j : Fin 1024, l (ix2 p j) * r (ix2 j k) := by
  refine (Ideal.matmul_constant_zero_apply D1 none l r (ix2 p k)).trans ?_
  rw [← Equiv.sum_comp (contrEquiv1 D1 1024 rfl rfl).symm]
  refine Finset.sum_congr rfl fun j _ => ?_
  have hj := contrEquiv1_symm_val D1 1024 rfl rfl j
  have el : D1.lhsIdx (ix2 p k) ((contrEquiv1 D1 1024 rfl rfl).symm j) = ix2 p j := funext fun a => Fin.ext (by
    match a with
    | ⟨0, _⟩ => exact lhs1_0 _ _
    | ⟨1, _⟩ => exact (lhs1_1 _ _).trans hj)
  have er : D1.rhsIdx (ix2 p k) ((contrEquiv1 D1 1024 rfl rfl).symm j) = ix2 j k := funext fun a => Fin.ext (by
    match a with
    | ⟨0, _⟩ => exact (rhs1_0 _ _).trans hj
    | ⟨1, _⟩ => exact rhs1_1 _ _)
  rw [el, er]

/-- The second product into a zero accumulator at `(p, q)`: the sum over the hidden channel `k` of
    `l[p, k] · r[k, q]`. -/
theorem mm2_apply {φ₁ φ₂ : FTy} (l : FVec Ideal S1024x1024 φ₁) (r : FVec Ideal S1024x1 φ₂) (p : Fin 1024) (q : Fin 1) :
    matmul D2 none l r (constant (F := Ideal) S1024x1 .f32 0x00000000#32) (ix2 p q)
      = ∑ k : Fin 1024, l (ix2 p k) * r (ix2 k q) := by
  refine (Ideal.matmul_constant_zero_apply D2 none l r (ix2 p q)).trans ?_
  rw [← Equiv.sum_comp (contrEquiv1 D2 1024 rfl rfl).symm]
  refine Finset.sum_congr rfl fun k _ => ?_
  have hk := contrEquiv1_symm_val D2 1024 rfl rfl k
  have el : D2.lhsIdx (ix2 p q) ((contrEquiv1 D2 1024 rfl rfl).symm k) = ix2 p k := funext fun a => Fin.ext (by
    match a with
    | ⟨0, _⟩ => exact lhs2_0 _ _
    | ⟨1, _⟩ => exact (lhs2_1 _ _).trans hk)
  have er : D2.rhsIdx (ix2 p q) ((contrEquiv1 D2 1024 rfl rfl).symm k) = ix2 k q := funext fun a => Fin.ext (by
    match a with
    | ⟨0, _⟩ => exact (rhs2_0 _ _).trans hk
    | ⟨1, _⟩ => exact rhs2_1 _ _)
  rw [el, er]

/-- THE BODY'S STORED VALUE AT `(p, q)`, from the three blocks it loads: the specification's double sum on row `p`
    of the block `x₀`. -/
theorem pay_apply (x0 : Vec Ideal S1024x1024 .f32) (x1 : Vec Ideal S1024x1024 .bf16) (x2 : Vec Ideal S1024x1 .bf16)
    (p : Fin 1024) (q : Fin 1) :
    k0_pay1 (F := Ideal) x0 x1 x2 (ix2 p q)
      = (∑ k : Fin 1024, act (∑ j : Fin 1024, x0 (ix2 p j) * x1 (ix2 j k)) * x2 (ix2 k q)) * scale := by
  unfold k0_pay1
  -- the first product at (p, k), with its operands read through the format change and the same-shape cast
  have first : ∀ k : Fin 1024,
      matmul D1 none (truncf .bf16 x0 bitsLt_bf16_f32) (shapeCast S1024x1024 x1 shapeCasts_S1024x1024_S1024x1024)
        (constant (F := Ideal) S1024x1024 .f32 0x00000000#32) (ix2 p k) = ∑ j : Fin 1024, x0 (ix2 p j) * x1 (ix2 j k) := fun k =>
    (mm1_apply _ _ p k).trans (Finset.sum_congr rfl fun j _ =>
      congrArg₂ (· * ·) rfl (congrFun (shapeCast_self x1 shapeCasts_S1024x1024_S1024x1024) (ix2 j k)))
  -- the outer scale, then the second product over the hidden channels
  refine (mulf_apply _ _ _).trans ?_
  refine congrArg₂ (· * ·) ?_ rfl
  refine (mm2_apply _ _ p q).trans ?_
  refine Finset.sum_congr rfl fun k _ => ?_
  refine congrArg₂ (· * ·) ?_ (congrFun (shapeCast_self x2 shapeCasts_S1024x1_S1024x1) (ix2 k q))
  -- the activation of the scaled first product: every operation here reads at the index by definition
  unfold act
  rw [← first k]
  rfl

end Cert.Readout

end
-- ==== Proof.HostPrefix.lean ====
/-
  What the two weight windows stage.

  Before the one kernel region the program converts `W₁` and `W₂` to the matrix unit's operand format, each into
  a buffer of its own; the region's second and third windows stage those buffers. Over the extended reals a change
  of float format is the identity, so when the region is entered the two buffers hold `W₁` and `W₂` themselves.
-/
import proofs.«105250_j49091476194033_1_alg».proof.Proof.Gen.KernelIdeal.Frame
import Idealize.ShloMosaic.Lib.StableHlo.Run
import Idealize.ShloMosaic.Lib.ValueIdx

noncomputable section

namespace Cert.Readout

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The converted copy of `W₁` the region finds is `W₁`, entry by entry. -/
theorem V_w1 (c : Dev nD) :
    (V (F := Ideal) m c main_v0 : S1024x1024.Idx → EReal) = (m ((c : Thread nD τ).loc main_arg1) : S1024x1024.Idx → EReal) := by
  dsimp only [Gen.V, Gen.hostOps0]
  after_results
  rfl

/-- The converted copy of `W₂` the region finds is `W₂`, entry by entry. -/
theorem V_w2 (c : Dev nD) :
    (V (F := Ideal) m c main_v1 : S1024x1.Idx → EReal) = (m ((c : Thread nD τ).loc main_arg2) : S1024x1.Idx → EReal) := by
  dsimp only [Gen.V, Gen.hostOps0]
  after_results
  rfl

end Cert.Readout

end
-- ==== Proof.Blocks.lean ====
/-
  From the grid's blocks to the whole result array.

  The kernel runs at 64 grid points. At point `t` it is given rows `1024·t … 1024·t + 1023` of the scalar channels
  of `x` (the first 1024 of the 4096 columns), all of `W₁` and all of `W₂`, and it writes back rows
  `1024·t … 1024·t + 1023` of the `[65536, 1]` result. Row `p` of what it writes is the specification's entry at row
  `1024·t + p`, so point `t` writes block `t` of the specification; the 64 blocks tile the 65536 rows (row `r` lies
  in block `r / 1024`), so after the run the result array is the specification.
-/
import proofs.«105250_j49091476194033_1_alg».proof.Proof.Gen.KernelIdeal.Value
import proofs.«105250_j49091476194033_1_alg».proof.Proof.Payload
import proofs.«105250_j49091476194033_1_alg».proof.Proof.HostPrefix
import proofs.«105250_j49091476194033_1_alg».proof.Proof.Spec

noncomputable section

open scoped BigOperators

namespace Cert.Readout

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The block indices over the 64 points: the window on `x` and the window on the result move down one block of
    rows per point and stay in block column 0; the two weight windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The three input blocks at a point -/

/-- The block of `x` at point `t`: entry `(p, j)` is `x` at row `1024·t + p`, scalar column `j`. -/
theorem xblk_apply (c : Dev nD) (t : Fin cfg0.N) (p j : Fin 1024) (hr : t.val * 1024 + p.val < 65536) :
    (iblk m c 0 t : Vec Ideal S1024x1024 .f32) (ix2 p j)
      = (m ((c : Thread nD τ).loc main_arg0) : S65536x4096.Idx → EReal) (ix2 (⟨t.val * 1024 + p.val, hr⟩ : Fin 65536) (col j)) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 1024 + 1 * j.val = j.val; rw [e1]; omega

/-- The block of the first weight matrix at any point is all of `W₁`. -/
theorem w1blk_apply (c : Dev nD) (t : Fin cfg0.N) (j k : Fin 1024) :
    (iblk m c 1 t : Vec Ideal S1024x1024 .bf16) (ix2 j k)
      = (m ((c : Thread nD τ).loc main_arg1) : S1024x1024.Idx → EReal) (ix2 j k) := by
  obtain ⟨-, -, e0, e1, -⟩ := idx_facts t
  unfold iblk
  rw [View.read_apply]
  show (V m c main_v0 : S1024x1024.Idx → EReal) _ = _
  rw [V_w1]
  congr 1
  funext a
  apply Fin.ext
  match a with
  | ⟨0, _⟩ => show win0_1.index t (0 : Fin 2) * 1024 + 1 * j.val = j.val; rw [e0]; omega
  | ⟨1, _⟩ => show win0_1.index t (1 : Fin 2) * 1024 + 1 * k.val = k.val; rw [e1]; omega

/-- The block of the second weight matrix at any point is all of `W₂`. -/
theorem w2blk_apply (c : Dev nD) (t : Fin cfg0.N) (k : Fin 1024) (q : Fin 1) :
    (iblk m c 2 t : Vec Ideal S1024x1 .bf16) (ix2 k q)
      = (m ((c : Thread nD τ).loc main_arg2) : S1024x1.Idx → EReal) (ix2 k q) := by
  obtain ⟨-, -, -, -, e0, e1, -⟩ := idx_facts t
  unfold iblk
  rw [View.read_apply]
  show (V m c main_v1 : S1024x1.Idx → EReal) _ = _
  rw [V_w2]
  congr 1
  funext a
  apply Fin.ext
  match a with
  | ⟨0, _⟩ => show win0_2.index t (0 : Fin 2) * 1024 + 1 * k.val = k.val; rw [e0]; omega
  | ⟨1, _⟩ => show win0_2.index t (1 : Fin 2) * 1 + 1 * q.val = q.val; rw [e1]; omega

/-! ## What a point stores is its block of the specification -/

/-- For blocks that are rows `1024·T …` of `X`, all of `A` and all of `B`: the body's stored value at `y` is the
    specification at the array index `i` whose row is `1024·T` plus `y`'s row. -/
theorem point_eq (X : S65536x4096.Idx → EReal) (A : S1024x1024.Idx → EReal) (B : S1024x1.Idx → EReal)
    (x0 : Vec Ideal S1024x1024 .f32) (x1 : Vec Ideal S1024x1024 .bf16) (x2 : Vec Ideal S1024x1 .bf16)
    (T : Nat) (hT : T < 64)
    (h0 : ∀ p j : Fin 1024, x0 (ix2 p j) = X (ix2 (⟨T * 1024 + p.val, by have := p.isLt; omega⟩ : Fin 65536) (col j)))
    (h1 : ∀ j k : Fin 1024, x1 (ix2 j k) = A (ix2 j k))
    (h2 : ∀ (k : Fin 1024) (q : Fin 1), x2 (ix2 k q) = B (ix2 k q))
    (y : S1024x1.Idx) (i : S65536x1.Idx) (hi0 : (i 0).val = T * 1024 + (y 0).val) (hi1 : (i 1).val = (y 1).val) :
    k0_pay1 (F := Ideal) x0 x1 x2 y = G X A B i := by
  obtain ⟨p, q, rfl⟩ : ∃ (p : Fin 1024) (q : Fin 1), y = ix2 p q := ⟨y 0, y 1, eq_ix2 y⟩
  rw [pay_apply]
  unfold G
  have er : (⟨(i 0).val, (i 0).isLt⟩ : Fin 65536) = ⟨T * 1024 + p.val, by have := p.isLt; omega⟩ := Fin.ext hi0
  have eq : (⟨(i 1).val, (i 1).isLt⟩ : Fin 1) = q := Fin.ext hi1
  rw [er, eq]
  unfold entry
  simp only [h0, h1, h2]

/-- WHAT POINT `t` WRITES BACK is block `t` of the specification of the three arguments. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  unfold out0_3
  rw [View.canon_unit_zero hz]
  simp only [View.ld_unit_zero (S := S1024x1024) hz, View.ld_unit_zero (S := S1024x1) hz]
  obtain ⟨-, -, -, -, -, -, e0, e1⟩ := idx_facts t
  have ht : t.val < 64 := Nat.lt_of_lt_of_eq t.isLt (show cfg0.N = 64 from N_0)
  funext y
  show k0_pay1 (F := Ideal) (iblk m c 0 t) (iblk m c 1 t) (iblk m c 2 t) y
    = G (m ((c : Thread nD τ).loc main_arg0)) (m ((c : Thread nD τ).loc main_arg1)) (m ((c : Thread nD τ).loc main_arg2))
        (((cfg0.win 3).blk t).view.emb y)
  exact point_eq (m ((c : Thread nD τ).loc main_arg0)) (m ((c : Thread nD τ).loc main_arg1)) (m ((c : Thread nD τ).loc main_arg2))
    (iblk m c 0 t) (iblk m c 1 t) (iblk m c 2 t) t.val ht
    (fun p j => xblk_apply m c t p j (by have := p.isLt; omega)) (fun j k => w1blk_apply m c t j k) (fun k q => w2blk_apply m c t k q)
    y (((cfg0.win 3).blk t).view.emb y)
    (by show win0_3.index t (0 : Fin 2) * 1024 + 1 * (y 0).val = t.val * 1024 + (y 0).val; rw [e0]; omega)
    (by show win0_3.index t (1 : Fin 2) * 1 + 1 * (y 1).val = (y 1).val; rw [e1]; omega)

/-! ## The blocks tile the result -/

/-- An index of the result is in point `t`'s block iff each coordinate is in the block's range on its axis. -/
theorem mem_blk (t : Fin cfg0.N) (i : S65536x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v2).slice (win0_3.rect t)).set ↔ _
  rw [View.set_slice_whole, Rect.mem_set_unit]
  exact Iff.rfl

/-- Every row of the result is in some point's block: row `r` in the block of point `r / 1024`. -/
theorem cover (i : S65536x1.Idx) :
    ∃ t : Fin cfg0.N, (cfg0.win 3).flush t = true ∧ i ∈ ((cfg0.win 3).blk t).view.set := by
  have hi0 : (i 0).val < 65536 := (i 0).isLt
  have hi1 : (i 1).val < 1 := (i 1).isLt
  obtain ⟨t, ht⟩ : ∃ t : Fin cfg0.N, t.val = (i 0).val / 1024 :=
    ⟨⟨(i 0).val / 1024, by rw [show cfg0.N = 64 from N_0]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1 ≤ (i 1).val ∧ (i 1).val < win0_3.index t (1 : Fin 2) * 1 + 1
    rw [e1]; omega

/-- THE RESULT ARRAY after the run is the specification of the three arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the result at the specification, the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Readout

end
-- ==== Proof.RefValue.lean ====
/-
  The reference program's result is the specification.

  The reference slices the scalar channels out of `x`, contracts them with `W₁`, multiplies by `1 / √1024`, applies
  SiLU spelt as `u · (1 / (1 + exp (-u)))`, multiplies by the normalisation word, contracts with `W₂` and multiplies
  by `1 / √1024` again. Read one operation at a time at an index, that is the specification's double sum once
  `1 / √1024` is identified with the word `2⁻⁵` and the spelt quotient with the logistic function; what remains is
  to name the operands' indices by their coordinates.
-/
import proofs.«105250_j49091476194033_1_alg».proof.Proof.Gen.ReferenceIdeal.Read
import proofs.«105250_j49091476194033_1_alg».proof.Proof.Spec

noncomputable section

open scoped BigOperators

namespace Cert.Readout

open Idealize.ShloMosaic Idealize.ShloMosaic.ValueIdx Cert.ReferenceIdeal Cert.ReferenceIdeal.Read

/-- THE REFERENCE'S RESULT, as the last stage of its run, is `G` of the three arguments. -/
theorem ref_eq_G (x0 : (⟨S65536x4096, .f32⟩ : BufTy).Contents (Elt Ideal)) (x1 : (⟨S1024x1024, .f32⟩ : BufTy).Contents (Elt Ideal))
    (x2 : (⟨S1024x1, .f32⟩ : BufTy).Contents (Elt Ideal)) :
    val_main_v13 (F := Ideal) x0 x1 x2 = G x0 x1 x2 := by
  funext i
  simp only [val_main_v13_apply, val_main_v9_apply, val_main_v12_apply, val_main_v11_apply, val_main_v10_apply,
    val_main_cst_2_apply, val_main_cst_3_apply, val_main_v8_apply, val_main_v7_apply, val_main_cst_1_apply,
    val_main_v6_apply, val_main_call0_v5_apply, val_main_call0_v4_apply, val_main_call0_cst_0_apply,
    val_main_call0_v3_apply, val_main_call0_v2_apply, val_main_call0_cst_apply, val_main_call0_v1_apply,
    val_main_call0_v0_apply, val_main_v5_apply, val_main_v4_apply, val_main_v3_apply, val_main_v2_apply,
    val_main_cst_apply, val_main_cst_0_apply, val_main_v1_apply, val_main_v0_apply,
    Ideal.mulf_def, Ideal.addf_def, Ideal.hostDivf_def, Ideal.hostNegf_def, Ideal.negf_def,
    Ideal.hostUnary_exp_def, Ideal.hostUnary_sqrt_def, Ideal.ofBits_def, inv_sqrt_fan_in, logistic_spelt]
  -- the three operands' indices, by coordinates: row `i 0` of `x` at scalar column `j`, `W₁` at `(j, k)`, `W₂` at `(k, i 1)`
  have hx : ∀ k j : Fin 1024,
      idx_main_v0 (lidx_main_v1 (lidx_main_v9 i k) j) = ix2 (⟨(i 0).val, (i 0).isLt⟩ : Fin 65536) (col j) :=
    fun k j => funext fun a => by match a with | ⟨0, _⟩ => rfl | ⟨1, _⟩ => rfl
  have ha : ∀ k j : Fin 1024, ridx_main_v1 (lidx_main_v9 i k) j = ix2 j k :=
    fun k j => funext fun a => by match a with | ⟨0, _⟩ => rfl | ⟨1, _⟩ => rfl
  have hb : ∀ k : Fin 1024, ridx_main_v9 i k = ix2 k (⟨(i 1).val, (i 1).isLt⟩ : Fin 1) :=
    fun k => funext fun a => by match a with | ⟨0, _⟩ => rfl | ⟨1, _⟩ => rfl
  unfold G entry act
  refine congrArg (· * scale) (Finset.sum_congr rfl fun k _ => ?_)
  have hs : (∑ j : Fin 1024, x0 (idx_main_v0 (lidx_main_v1 (lidx_main_v9 i k) j)) * x1 (ridx_main_v1 (lidx_main_v9 i k) j))
      = ∑ j : Fin 1024, x0 (ix2 (⟨(i 0).val, (i 0).isLt⟩ : Fin 65536) (col j)) * x1 (ix2 j k) :=
    Finset.sum_congr rfl fun j _ => by rw [hx k j, ha k j]
  rw [hs, hb k]

end Cert.Readout

end
-- ==== Proof.lean ====
/-
  The readout block `out = ((silu((x₀ · W₁) · s) · g) · W₂) · s` — `x₀` the first 1024 columns of `x`, `s = 1/√1024`,
  `g` the binary32 word nearest 1.679 — computed by a kernel over 64 blocks of 1024 rows and by a whole-array reference:
  the two agree entry by entry over the extended reals.

  Both programs have the same shape: a contraction over 1024 terms, a scale, the activation, a second contraction over
  1024 terms, a scale, every product and sum with its operands in the same order. They differ in three spellings. The
  kernel's scale is the word `2⁻⁵`, the reference's is `1` divided by the square root of `1024`: the same number,
  `32² = 1024`. The kernel applies the logistic function as one operation, the reference writes `1 / (1 + exp (-u))`:
  that is the function's definition. The kernel's matrix products take operands in a narrower float format, which is
  the identity over the extended reals. So no law of arithmetic is needed beyond these identities, and the inputs'
  finiteness is never used.

  Proof/Spec.lean states the result as one function `G` of the three arguments and proves the scalar identities;
  Proof/RefValue.lean reads the reference's run, operation by operation, as `G`; Proof/Payload.lean reads the value
  the kernel body stores, at an entry, as the double sum on the block's row; Proof/HostPrefix.lean reads the two
  converted weight buffers as the weights; Proof/Blocks.lean shows that grid point `t` writes block `t` of `G` and
  that the 64 blocks tile the result. Here the five claims are assembled: the three runs terminate with the arguments
  unchanged, the idealization rewrote nothing, and the two idealized runs end at the same `G`.
-/
import proofs.«105250_j49091476194033_1_alg».proof.Defs
import proofs.«105250_j49091476194033_1_alg».proof.Proof.Gen.Kernel
import proofs.«105250_j49091476194033_1_alg».proof.Proof.Gen.Kernel.Skeleton
import proofs.«105250_j49091476194033_1_alg».proof.Proof.Gen.Kernel.Launch
import proofs.«105250_j49091476194033_1_alg».proof.Proof.Gen.Kernel.Points
import proofs.«105250_j49091476194033_1_alg».proof.Proof.Gen.Kernel.Frame
import proofs.«105250_j49091476194033_1_alg».proof.Proof.Gen.KernelIdeal
import proofs.«105250_j49091476194033_1_alg».proof.Proof.Gen.KernelIdeal.Skeleton
import proofs.«105250_j49091476194033_1_alg».proof.Proof.Gen.KernelIdeal.Launch
import proofs.«105250_j49091476194033_1_alg».proof.Proof.Gen.KernelIdeal.Points
import proofs.«105250_j49091476194033_1_alg».proof.Proof.Gen.KernelIdeal.Frame
import proofs.«105250_j49091476194033_1_alg».proof.Proof.Gen.KernelIdeal.Value
import proofs.«105250_j49091476194033_1_alg».proof.Proof.Gen.ReferenceIdeal
import proofs.«105250_j49091476194033_1_alg».proof.Proof.Gen.ReferenceIdeal.Run
import proofs.«105250_j49091476194033_1_alg».proof.Proof.Gen.ReferenceIdeal.Read
import proofs.«105250_j49091476194033_1_alg».proof.Proof.Gen.Pre_finite_inputs
import Idealize.ShloMosaic.Adequacy
import Idealize.ShloMosaic.Init
import proofs.«105250_j49091476194033_1_alg».proof.Proof.Blocks
import proofs.«105250_j49091476194033_1_alg».proof.Proof.RefValue

noncomputable section

namespace Cert.Proof

open Idealize.ShloMosaic Idealize.SL.Sem

/-- The specification respects equality of its three arguments. -/
theorem G_congr {X X' : (⟨2, ![65536, 4096]⟩ : Shape).Idx → EReal} {A A' : (⟨2, ![1024, 1024]⟩ : Shape).Idx → EReal}
    {B B' : (⟨2, ![1024, 1]⟩ : Shape).Idx → EReal} (hX : X' = X) (hA : A' = A) (hB : B' = B) :
    Cert.Readout.G X' A' B' = Cert.Readout.G X A B := by
  subst hX hA hB; rfl

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized runs end at the specification of the (agreeing) arguments. -/
theorem algebraic : Cert.algebraic_KernelIdeal_ReferenceIdeal := fun m ρ m' ρ' _ hagree =>
  ⟨_, Cert.Readout.run m ρ,
    (θ_run Cert.ReferenceIdeal.defs _ _).mono
      (fun _ h c => ⟨(h c).1.trans ((Cert.ReferenceIdeal.Read.val_main_v13_eq _ _ _).trans
          ((Cert.Readout.ref_eq_G _ _ _).trans (G_congr (hagree c).1 (hagree c).2.1 (hagree c).2.2))), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
